-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x2560 : Shape := ⟨2, ![4096, 2560]⟩
abbrev S2048x512 : Shape := ⟨2, ![2048, 512]⟩
abbrev S2048x2048 : Shape := ⟨2, ![2048, 2048]⟩
abbrev S6144x512 : Shape := ⟨2, ![6144, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x2560 : S_.BroadcastsInDim S4096x2560 (![] : Fin 0 → Fin S4096x2560.rank)
  reducesTo_S4096x2560_S_d0_1 : S4096x2560.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S6144x512 : S_.BroadcastsInDim S6144x512 (![] : Fin 0 → Fin S6144x512.rank)
  reducesTo_S6144x512_S_d0_1 : S6144x512.ReducesTo [0, 1] S_

variable [Facts]

def fn_part1 {F : FTy → Type} [FloatOps F] (main_arg4 : FVec F S6144x512 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S6144x512 .f32 := Host.absf main_arg4
  let main_cst_6 : FVec F S_ .f32 := constant S_ .f32 0x7F800000#32
  let main_v20 : FVec F S6144x512 .f32 := broadcastInDim S6144x512 ![] bcast_S_S6144x512 main_cst_6
  let main_v21 : IVec S6144x512 1 := cmpf .olt main_v19 main_v20
  let main_c_7 : IVec S_ 1 := constantI S_ 1 1#1
  let main_v22 : IVec S_ 1 := (fun x v => Host.reduce IntOp.andi x v reducesTo_S6144x512_S_d0_1 h_S_) main_v21 main_c_7
  let main_v23 : IVec S_ 1 := andi main_v18 main_v22
  main_v23

def fn {F : FTy → Type} [FloatOps F] (main_arg0 : FVec F S4096x512 .f32) (main_arg1 : FVec F S4096x2560 .f32) (main_arg2 : FVec F S2048x512 .f32) (main_arg3 : FVec F S2048x2048 .f32) (main_arg4 : FVec F S6144x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x2560 .f32 := Host.absf main_arg1
  let main_cst_0 : FVec F S_ .f32 := constant S_ .f32 0x7F800000#32
  let main_v5 : FVec F S4096x2560 .f32 := broadcastInDim S4096x2560 ![] bcast_S_S4096x2560 main_cst_0
  let main_v6 : IVec S4096x2560 1 := cmpf .olt main_v4 main_v5
  let main_c_1 : IVec S_ 1 := constantI S_ 1 1#1
  let main_v7 : IVec S_ 1 := (fun x v => Host.reduce IntOp.andi x v reducesTo_S4096x2560_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S4096x512 : Shape := ⟨2, ![4096, 512]⟩
abbrev S4096x2560 : Shape := ⟨2, ![4096, 2560]⟩
abbrev S2048x512 : Shape := ⟨2, ![2048, 512]⟩
abbrev S2048x2048 : Shape := ⟨2, ![2048, 2048]⟩
abbrev S6144x512 : Shape := ⟨2, ![6144, 512]⟩
abbrev S128x512 : Shape := ⟨2, ![128, 512]⟩
abbrev S128x2048 : Shape := ⟨2, ![128, 2048]⟩
abbrev S128x2560 : Shape := ⟨2, ![128, 2560]⟩
abbrev S128x6144 : Shape := ⟨2, ![128, 6144]⟩

abbrev nBuf : Space → Nat
  | .hbm => 9
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096x2560, .f32⟩
  | .hbm, ⟨2, _⟩ => ⟨S2048x512, .f32⟩
  | .hbm, ⟨3, _⟩ => ⟨S2048x2048, .f32⟩
  | .hbm, ⟨4, _⟩ => ⟨S6144x512, .f32⟩
  | .hbm, ⟨5, _⟩ => ⟨S2048x512, .bf16⟩
  | .hbm, ⟨6, _⟩ => ⟨S2048x2048, .bf16⟩
  | .hbm, ⟨7, _⟩ => ⟨S6144x512, .bf16⟩
  | .hbm, ⟨8, _⟩ => ⟨S4096x2560, .f32⟩
  | .local _ .vmem, ⟨0, _⟩ => ⟨S128x512, .f32⟩
  | .local _ .vmem, ⟨1, _⟩ => ⟨S128x512, .f32⟩
  | .local _ .vmem, ⟨2, _⟩ => ⟨S128x2048, .f32⟩
  | .local _ .vmem, ⟨3, _⟩ => ⟨S128x2048, .f32⟩
  | .local _ .vmem, ⟨4, _⟩ => ⟨S2048x512, .bf16⟩
  | .local _ .vmem, ⟨5, _⟩ => ⟨S2048x2048, .bf16⟩
  | .local _ .vmem, ⟨6, _⟩ => ⟨S6144x512, .bf16⟩
  | .local _ .vmem, ⟨7, _⟩ => ⟨S128x2560, .f32⟩
  | .local _ .vmem, ⟨8, _⟩ => ⟨S128x2560, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6144x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S128x2048_S128x2048_0_0 : ∀ a, (![0, 0] : Fin 2 → Nat) a + S128x2048.size a ≤ S128x2048.size a
  h_S128x2048 : 0 < S128x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S6144x512_S6144x512_0_0 : ∀ a, (![0, 0] : Fin 2 → Nat) a + S6144x512.size a ≤ S6144x512.size a
  h_S6144x512 : 0 < S6144x512.numel
  shapeCasts_S6144x512_S6144x512 : S6144x512.ShapeCasts S6144x512
  slices_S128x6144_o0_0_S128x2048 : S128x6144.Slices ![0, 0] S128x2048
  slices_S128x6144_o0_2048_S128x2048 : S128x6144.Slices ![0, 2048] S128x2048
  slices_S128x6144_o0_4096_S128x2048 : S128x6144.Slices ![0, 4096] S128x2048
  inb_S128x2560_S128x2048_0_0 : ∀ a, (![0, 0] : Fin 2 → Nat) a + S128x2048.size a ≤ S128x2560.size a
  inb_S128x2560_S128x512_0_2048 : ∀ a, (![0, 2048] : Fin 2 → Nat) a + S128x512.size a ≤ S128x2560.size a
  dot_S128x512_S2048x512_S128x2048_1_1_0_0_n_n_wf : DotDims.WF S128x512 S2048x512 S128x2048 [1] [1] [0] [0] [] []
  dot_S128x2048_S2048x2048_S128x2048_1_1_0_0_n_n_wf : DotDims.WF S128x2048 S2048x2048 S128x2048 [1] [1] [0] [0] [] []
  dot_S128x512_S6144x512_S128x6144_1_1_0_0_n_n_wf : DotDims.WF S128x512 S6144x512 S128x6144 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S4096x512.size a
  hwx0_0 : ∀ i : grid0.Coords, EltTy.bits .f32 = 32 ∨ (Rect.block (s := S4096x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S128x2048.size a < S4096x2560.size a
  hwx0_1 : ∀ i : grid0.Coords, EltTy.bits .f32 = 32 ∨ (Rect.unit (s := S4096x2560) (fun a => cc0_transform_1 i a * S128x2048.size a) (fun a => (Pipeline.Clip.of (cc0_transform_1 i a) (S128x2048.size a) (S4096x2560.size a)).extent (S128x2048.size a)) fun a => Pipeline.Clip.inb (Pipeline.Clip.ok_of (hstart0_1 i a))).WholeWords (EltTy.packing .f32)
  hwxs0_1 : ∀ i : grid0.Coords, EltTy.bits .f32 = 32 ∨ (Rect.unit (s := S128x2048) (fun _ => 0) (fun a => (Pipeline.Clip.of (cc0_transform_1 i a) (S128x2048.size a) (S4096x2560.size a)).extent (S128x2048.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6144x512.size a ≤ S6144x512.size a
  hwx0_4 : ∀ i : grid0.Coords, EltTy.bits .bf16 = 32 ∨ (Rect.block (s := S6144x512) S6144x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2560.size a ≤ S4096x2560.size a
  hwx0_5 : ∀ i : grid0.Coords, EltTy.bits .f32 = 32 ∨ (Rect.block (s := S4096x2560) S128x2560.size (cc0_transform_5 i) (hinb0_5 i)).WholeWords (EltTy.packing .f32)

variable [Facts₀]

def dot_S128x512_S2048x512_S128x2048_1_1_0_0_n_n : DotDims S128x512 S2048x512 S128x2048 where
  lhsContracting := [1]
  rhsContracting := [1]
  lhsNonContracting := [0]
  rhsNonContracting := [0]
  lhsBatch := []
  rhsBatch := []
  wf := dot_S128x512_S2048x512_S128x2048_1_1_0_0_n_n_wf
def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf
def dot_S128x512_S6144x512_S128x6144_1_1_0_0_n_n : DotDims S128x512 S6144x512 S128x6144 where
  lhsContracting := [1]
  rhsContracting := [1]
  lhsNonContracting := [0]
  rhsNonContracting := [0]
  lhsBatch := []
  rhsBatch := []
  wf := dot_S128x512_S6144x512_S128x6144_1_1_0_0_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S128x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S6144x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x2560.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x2560 : Shape := ⟨2, ![4096, 2560]⟩
abbrev S2048x512 : Shape := ⟨2, ![2048, 512]⟩
abbrev S2048x2048 : Shape := ⟨2, ![2048, 2048]⟩
abbrev S6144x512 : Shape := ⟨2, ![6144, 512]⟩
abbrev S4096x2048 : Shape := ⟨2, ![4096, 2048]⟩
abbrev S512x2048 : Shape := ⟨2, ![512, 2048]⟩
abbrev S512x6144 : Shape := ⟨2, ![512, 6144]⟩
abbrev S4096x6144 : Shape := ⟨2, ![4096, 6144]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2560, .f32⟩
  | .hbm, ⟨2, _⟩ => ⟨S2048x512, .f32⟩
  | .hbm, ⟨3, _⟩ => ⟨S2048x2048, .f32⟩
  | .hbm, ⟨4, _⟩ => ⟨S6144x512, .f32⟩
  | .hbm, ⟨5, _⟩ => ⟨S4096x2048, .f32⟩
  | .hbm, ⟨6, _⟩ => ⟨S512x2048, .f32⟩
  | .hbm, ⟨7, _⟩ => ⟨S4096x2048, .f32⟩
  | .hbm, ⟨8, _⟩ => ⟨S2048x2048, .f32⟩
  | .hbm, ⟨9, _⟩ => ⟨S4096x2048, .f32⟩
  | .hbm, ⟨10, _⟩ => ⟨S512x6144, .f32⟩
  | .hbm, ⟨11, _⟩ => ⟨S4096x6144, .f32⟩
  | .hbm, ⟨12, _⟩ => ⟨S4096x6144, .f32⟩
  | .hbm, ⟨13, _⟩ => ⟨S4096x6144, .f32⟩
  | .hbm, ⟨14, _⟩ => ⟨S_, .f32⟩
  | .hbm, ⟨15, _⟩ => ⟨S4096x6144, .f32⟩
  | .hbm, ⟨16, _⟩ => ⟨S4096x6144, .f32⟩
  | .hbm, ⟨17, _⟩ => ⟨S_, .f32⟩
  | .hbm, ⟨18, _⟩ => ⟨S4096x6144, .f32⟩
  | .hbm, ⟨19, _⟩ => ⟨S4096x6144, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .i1⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .i32⟩
  | .hbm, ⟨43, _⟩ => ⟨S_, .f32⟩
  | .hbm, ⟨44, _⟩ => ⟨S4096x2560, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c : Ref sig .tc := ⟨.hbm, 42, rfl⟩
abbrev main_call1_v0 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  slices_S4096x2560_S4096x2048_0_0 : S4096x2560.Slices ![0, 0] S4096x2048
  transposes_S2048x512_S512x2048_1_0 : S2048x512.Transposes [1, 0] S512x2048
  transposes_S2048x2048_S2048x2048_1_0 : S2048x2048.Transposes [1, 0] S2048x2048
  transposes_S6144x512_S512x6144_1_0 : S6144x512.Transposes [1, 0] S512x6144
  bcast_S_S4096x6144 : S_.BroadcastsInDim S4096x6144 (![] : Fin 0 → Fin S4096x6144.rank)
  slices_S4096x6144_S4096x2048_0_0 : S4096x6144.Slices ![0, 0] S4096x2048
  slices_S4096x6144_S4096x2048_0_2048 : S4096x6144.Slices ![0, 2048] S4096x2048
  slices_S4096x6144_S4096x2048_0_4096 : S4096x6144.Slices ![0, 4096] S4096x2048
  bcast_S_S4096x2048 : S_.BroadcastsInDim S4096x2048 (![] : Fin 0 → Fin S4096x2048.rank)
  pads_S4096x2048_S4096x2560_000_05120 : S4096x2048.Pads (![0, 0] : Fin 2 → Nat) ![0, 512] ![0, 0] S4096x2560
  h_S_ : 0 < S_.numel
  dot_S4096x512_S512x2048_S4096x2048_1_0_0_1_n_n_wf : DotDims.WF S4096x512 S512x2048 S4096x2048 [1] [0] [0] [1] [] []
  dot_S4096x2048_S2048x2048_S4096x2048_1_0_0_1_n_n_wf : DotDims.WF S4096x2048 S2048x2048 S4096x2048 [1] [0] [0] [1] [] []
  dot_S4096x512_S512x6144_S4096x6144_1_0_0_1_n_n_wf : DotDims.WF S4096x512 S512x6144 S4096x6144 [1] [0] [0] [1] [] []

variable [Facts₀]

def dot_S4096x512_S512x2048_S4096x2048_1_0_0_1_n_n : DotDims S4096x512 S512x2048 S4096x2048 where
  lhsContracting := [1]
  rhsContracting := [0]
  lhsNonContracting := [0]
  rhsNonContracting := [1]
  lhsBatch := []
  rhsBatch := []
  wf := dot_S4096x512_S512x2048_S4096x2048_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x512_S512x6144_S4096x6144_1_0_0_1_n_n : DotDims S4096x512 S512x6144 S4096x6144 where
  lhsContracting := [1]
  rhsContracting := [0]
  lhsNonContracting := [0]
  rhsNonContracting := [1]
  lhsBatch := []
  rhsBatch := []
  wf := dot_S4096x512_S512x6144_S4096x6144_1_0_0_1_n_n_wf

class Facts : Prop extends Facts₀ where

variable [Facts]
-- ==== Proof.Body.lean ====
/-
  The frame of the idealized kernel: the proof data of its one pipeline, the body's triple, the body
  obligation at every grid point and the run.

  The pallas_call has 32 grid points. Point t stages rows [128 t, 128 t + 128) of the inputs (all 512
  columns) and of the state (its first 2048 columns), the three weight matrices whole, and writes back
  rows [128 t, 128 t + 128) of the result, all 2560 columns. The body loads the five input buffers whole,
  stores the gated update into columns [0, 2048) of the result's buffer and zeros into columns
  [2048, 2560): two stores whose rectangles tile the buffer, so what the buffer holds afterwards is a
  closed function of the five loaded blocks (outBlock).

  The state's window is 2048 columns wide in an array 2560 columns wide: its blocks would not tile the
  array, but the index map only ever names column block 0, which lies inside the array at each of the
  32 points (state_uncut). So every fetch of it fills the whole staging buffer with the block, and
  nothing of the buffer's earlier contents survives (stateBlock_eq).
-/
import proofs.«152846_j10806137717143_2_alg».proof.Proof.Gen.KernelIdeal.Frame
import proofs.«152846_j10806137717143_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- The whole input block, the whole state block, the three whole weight matrices; -/
abbrev rIn : Rect S128x512 := Rect.unit (s := S128x512) ![0, 0] S128x512.size inb_S128x512_S128x512_0_0
abbrev rState : Rect S128x2048 := Rect.unit (s := S128x2048) ![0, 0] S128x2048.size inb_S128x2048_S128x2048_0_0
abbrev rWin : Rect S2048x512 := Rect.unit (s := S2048x512) ![0, 0] S2048x512.size inb_S2048x512_S2048x512_0_0
abbrev rWres : Rect S2048x2048 := Rect.unit (s := S2048x2048) ![0, 0] S2048x2048.size inb_S2048x2048_S2048x2048_0_0
abbrev rWgate : Rect S6144x512 := Rect.unit (s := S6144x512) ![0, 0] S6144x512.size inb_S6144x512_S6144x512_0_0
/-- and of the result's 128 x 2560 buffer the active columns [0, 2048) and the padding columns [2048, 2560). -/
abbrev rActive : Rect S128x2560 := Rect.unit (s := S128x2560) ![0, 0] S128x2048.size inb_S128x2560_S128x2048_0_0
abbrev rPad : Rect S128x2560 := Rect.unit (s := S128x2560) ![0, 2048] S128x512.size inb_S128x2560_S128x512_0_2048

/-! ## What the body leaves in the result's buffer -/

/-- The result's staging buffer after the body, from the five input buffers' contents: the zeros stored last
    over the padding columns, the gated update stored before them over the active columns. -/
def outBlock (x0 : Vec F S128x512 .f32) (x1 : Vec F S128x2048 .f32) (x2 : Vec F S2048x512 .bf16)
    (x3 : Vec F S2048x2048 .bf16) (x4 : Vec F S6144x512 .bf16) : Vec F S128x2560 .f32 :=
  View.canon [⟨rPad, k0_pay2⟩,
    ⟨rActive, k0_pay1 (View.ld x0 rIn) (View.ld x1 rState) (View.ld x2 rWin) (View.ld x3 rWres) (View.ld x4 rWgate)⟩]

/-- The two stores cover the buffer: a column below 2048 lies in the active part, any other in the padding. -/
theorem cover_out (p0 : Vec F S128x512 .f32) (p1 : Vec F S128x2048 .f32) (y : S128x2560.Idx) :
    ∃ pc ∈ ([⟨rPad, p0⟩, ⟨rActive, p1⟩] : List (View.Piece (Elt F) S128x2560 .f32)), y ∈ pc.1.set := by
  have h0 : (y 0).val < 128 := (y 0).isLt
  have h1 : (y 1).val < 2560 := (y 1).isLt
  by_cases h : (y 1).val < 2048
  · refine ⟨⟨rActive, p1⟩, by simp, (Rect.mem_set_unit (inb := inb_S128x2560_S128x2048_0_0)).mpr fun a => ?_⟩
    match a with
    | ⟨0, _⟩ => exact ⟨Nat.zero_le _, by show (y 0).val < 0 + 128; omega⟩
    | ⟨1, _⟩ => exact ⟨Nat.zero_le _, by show (y 1).val < 0 + 2048; omega⟩
  · refine ⟨⟨rPad, p0⟩, by simp, (Rect.mem_set_unit (inb := inb_S128x2560_S128x512_0_2048)).mpr fun a => ?_⟩
    match a with
    | ⟨0, _⟩ => exact ⟨Nat.zero_le _, by show (y 0).val < 0 + 128; omega⟩
    | ⟨1, _⟩ => exact ⟨by show 2048 ≤ (y 1).val; omega, by show (y 1).val < 2048 + 512; omega⟩

/-! ## The body's triple -/

set_option maxHeartbeats 1000000 in
/-- The kernel body on whole staging memrefs, the five inputs' at read contents `x0 … x4` and the result's at
    anything, runs to the continuation holding the inputs' as they were and the result's at `outBlock` of them:
    five whole loads, a load of the result's active columns that nothing uses, the store over them, a load of the
    padding columns that nothing uses, the store of zeros over them. -/
theorem sound_kernel (c : Dev nD) (E : Set ℕ) (i : grid0.Coords)
    (arg1 : Memref sig .tc .vmem S128x512 .f32) (harg1 : arg1.IsWhole) (arg2 : Memref sig .tc .vmem S128x2048 .f32) (harg2 : arg2.IsWhole)
    (arg3 : Memref sig .tc .vmem S2048x512 .bf16) (harg3 : arg3.IsWhole) (arg4 : Memref sig .tc .vmem S2048x2048 .bf16) (harg4 : arg4.IsWhole)
    (arg5 : Memref sig .tc .vmem S6144x512 .bf16) (harg5 : arg5.IsWhole) (arg6 : Memref sig .tc .vmem S128x2560 .f32) (harg6 : arg6.IsWhole)
    (x0 : Vec F S128x512 .f32) (x1 : Vec F S128x2048 .f32) (x2 : Vec F S2048x512 .bf16) (x3 : Vec F S2048x2048 .bf16) (x4 : Vec F S6144x512 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__kernel i arg1 harg1 arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _ _)

end Cert.KernelIdeal.Hand

end
-- ==== Proof.Run.lean ====
/-
  The frame run of the idealized kernel: the proof data of its pipeline (what each staging buffer holds after
  the body at each of the 32 grid points), what the body finds in each buffer, the body obligation, and the run
  to the library's frame post.

  After the body at point t the input buffers hold what they held — rows [128 t, 128 t + 128) of the inputs,
  the same rows of the state's first 2048 columns, the three weight matrices — and the result's buffer holds
  outBlock of them. The inputs' and weights' windows tile their arrays; the state's window does not, but no
  block the index map names is cut (state_uncut), so a fetch of it overwrites the whole buffer and what the
  buffer held before does not matter (before_state).
-/
import proofs.«152846_j10806137717143_2_alg».proof.Proof.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The state's window -/

/-- At each of the 32 grid points the state's block — rows [128 t, 128 t + 128), columns [0, 2048) of an array
    of 4096 x 2560 — ends inside the array on both axes: no transfer of it is cut. -/
theorem state_uncut : ∀ (t : Fin cfg0.N) (a : Fin 2), (cfg0.win 1).clip (cfg0.grid.coords t) a = none :=
  (by decide +kernel : ∀ (t : Fin grid0.N) (a : Fin 2), win0_1.clip (grid0.coords t) a = none)

/-- The state's staging buffer once the fetch at point `t` has landed: the block, filling all of it. (The
    filler, the zero word, is at no index: `stateBlock_eq`.) -/
def stateBlock (c : Dev nD) (t : Fin cfg0.N) : S128x2048.Idx → Elt F .f32 :=
  (cfg0.win 1).fill (cfg0.grid.coords t) (fun _ => Scalar.ofBits .f32 0#32) (iblk m c 1 t)

/-- Whatever the buffer held before the fetch, it holds `stateBlock` after it. -/
theorem stateBlock_eq (c : Dev nD) (t : Fin cfg0.N) (d : S128x2048.Idx → Elt F .f32) :
    (cfg0.win 1).fill (cfg0.grid.coords t) d (iblk m c 1 t) = stateBlock m c t :=
  Pipeline.fill_of_clip_none (cfg := cfg0) 1 (cfg0.grid.coords t) (state_uncut t) d _ (iblk m c 1 t)

/-! ## The pipeline's proof data -/

/-- The proof data of the one pipeline on core `c`: the arrays as the region finds them; after the body at point
    `t` each input's buffer at its block and the result's at `outBlock` of the five; the region's invariant (the
    scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => stateBlock m c t
    | ⟨2, _⟩ => iblk m c 2 t
    | ⟨3, _⟩ => iblk m c 3 t
    | ⟨4, _⟩ => iblk m c 4 t
    | ⟨5, _⟩ => outBlock (iblk m c 0 t) (stateBlock m c t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = stateBlock m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlock (iblk m c 0 t) (stateBlock m c t) (iblk m c 2 t) (iblk m c 3 t) (iblk m c 4 t) := by
  dsimp only [dats]

/-! ## What the body finds -/

/-- The inputs' and the weights' buffers hold their blocks at every point, fetched there or not; -/
theorem before_0 (c : Dev nD) (t : Fin cfg0.N) (d) : (dats m 0 c).before 0 t d = iblk m c 0 t :=
  before0_0_of m (dats m 0 c) (A_eq m c 0) (after_0 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- the state's buffer, fetched at every point, its block there, all of the buffer. -/
theorem before_1 (c : Dev nD) (t : Fin cfg0.N) (d) : (dats m 0 c).before 1 t d = stateBlock m c t := by
  unfold Dat.before
  rw [if_pos (fetch0_1 t)]
  unfold Dat.fetched Dat.blockOf
  rw [A_eq]
  exact stateBlock_eq m c t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the five input memrefs hold their blocks, so `sound_kernel` applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (stateBlock m c t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    terminates, and every final state has every array of the pipeline at what the library computes from the proof
    data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.BodyBits.lean ====
/-
  The frame of the kernel as printed (read at any float instance, cited at the word-level one): the proof data of its one pipeline, the body's triple, the body
  obligation at every grid point and the run.

  The pallas_call has 32 grid points. Point t stages rows [128 t, 128 t + 128) of the inputs (all 512
  columns) and of the state (its first 2048 columns), the three weight matrices whole, and writes back
  rows [128 t, 128 t + 128) of the result, all 2560 columns. The body loads the five input buffers whole,
  stores the gated update into columns [0, 2048) of the result's buffer and zeros into columns
  [2048, 2560): two stores whose rectangles tile the buffer, so what the buffer holds afterwards is a
  closed function of the five loaded blocks (outBlock).

  The state's window is 2048 columns wide in an array 2560 columns wide: its blocks would not tile the
  array, but the index map only ever names column block 0, which lies inside the array at each of the
  32 points (state_uncut). So every fetch of it fills the whole staging buffer with the block, and
  nothing of the buffer's earlier contents survives (stateBlock_eq).
-/
import proofs.«152846_j10806137717143_2_alg».proof.Proof.Gen.Kernel.Frame
import proofs.«152846_j10806137717143_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- The whole input block, the whole state block, the three whole weight matrices; -/
abbrev rIn : Rect S128x512 := Rect.unit (s := S128x512) ![0, 0] S128x512.size inb_S128x512_S128x512_0_0
abbrev rState : Rect S128x2048 := Rect.unit (s := S128x2048) ![0, 0] S128x2048.size inb_S128x2048_S128x2048_0_0
abbrev rWin : Rect S2048x512 := Rect.unit (s := S2048x512) ![0, 0] S2048x512.size inb_S2048x512_S2048x512_0_0
abbrev rWres : Rect S2048x2048 := Rect.unit (s := S2048x2048) ![0, 0] S2048x2048.size inb_S2048x2048_S2048x2048_0_0
abbrev rWgate : Rect S6144x512 := Rect.unit (s := S6144x512) ![0, 0] S6144x512.size inb_S6144x512_S6144x512_0_0
/-- and of the result's 128 x 2560 buffer the active columns [0, 2048) and the padding columns [2048, 2560). -/
abbrev rActive : Rect S128x2560 := Rect.unit (s := S128x2560) ![0, 0] S128x2048.size inb_S128x2560_S128x2048_0_0
abbrev rPad : Rect S128x2560 := Rect.unit (s := S128x2560) ![0, 2048] S128x512.size inb_S128x2560_S128x512_0_2048

/-! ## What the body leaves in the result's buffer -/

/-- The result's staging buffer after the body, from the five input buffers' contents: the zeros stored last
    over the padding columns, the gated update stored before them over the active columns. -/
def outBlock (x0 : Vec F S128x512 .f32) (x1 : Vec F S128x2048 .f32) (x2 : Vec F S2048x512 .bf16)
    (x3 : Vec F S2048x2048 .bf16) (x4 : Vec F S6144x512 .bf16) : Vec F S128x2560 .f32 :=
  View.canon [⟨rPad, k0_pay2⟩,
    ⟨rActive, k0_pay1 (View.ld x0 rIn) (View.ld x1 rState) (View.ld x2 rWin) (View.ld x3 rWres) (View.ld x4 rWgate)⟩]

/-- The two stores cover the buffer: a column below 2048 lies in the active part, any other in the padding. -/
theorem cover_out (p0 : Vec F S128x512 .f32) (p1 : Vec F S128x2048 .f32) (y : S128x2560.Idx) :
    ∃ pc ∈ ([⟨rPad, p0⟩, ⟨rActive, p1⟩] : List (View.Piece (Elt F) S128x2560 .f32)), y ∈ pc.1.set := by
  have h0 : (y 0).val < 128 := (y 0).isLt
  have h1 : (y 1).val < 2560 := (y 1).isLt
  by_cases h : (y 1).val < 2048
  · refine ⟨⟨rActive, p1⟩, by simp, (Rect.mem_set_unit (inb := inb_S128x2560_S128x2048_0_0)).mpr fun a => ?_⟩
    match a with
    | ⟨0, _⟩ => exact ⟨Nat.zero_le _, by show (y 0).val < 0 + 128; omega⟩
    | ⟨1, _⟩ => exact ⟨Nat.zero_le _, by show (y 1).val < 0 + 2048; omega⟩
  · refine ⟨⟨rPad, p0⟩, by simp, (Rect.mem_set_unit (inb := inb_S128x2560_S128x512_0_2048)).mpr fun a => ?_⟩
    match a with
    | ⟨0, _⟩ => exact ⟨Nat.zero_le _, by show (y 0).val < 0 + 128; omega⟩
    | ⟨1, _⟩ => exact ⟨by show 2048 ≤ (y 1).val; omega, by show (y 1).val < 2048 + 512; omega⟩

/-! ## The body's triple -/

set_option maxHeartbeats 1000000 in
/-- The kernel body on whole staging memrefs, the five inputs' at read contents `x0 … x4` and the result's at
    anything, runs to the continuation holding the inputs' as they were and the result's at `outBlock` of them:
    five whole loads, a load of the result's active columns that nothing uses, the store over them, a load of the
    padding columns that nothing uses, the store of zeros over them. -/
theorem sound_kernel (c : Dev nD) (E : Set ℕ) (i : grid0.Coords)
    (arg1 : Memref sig .tc .vmem S128x512 .f32) (harg1 : arg1.IsWhole) (arg2 : Memref sig .tc .vmem S128x2048 .f32) (harg2 : arg2.IsWhole)
    (arg3 : Memref sig .tc .vmem S2048x512 .bf16) (harg3 : arg3.IsWhole) (arg4 : Memref sig .tc .vmem S2048x2048 .bf16) (harg4 : arg4.IsWhole)
    (arg5 : Memref sig .tc .vmem S6144x512 .bf16) (harg5 : arg5.IsWhole) (arg6 : Memref sig .tc .vmem S128x2560 .f32) (harg6 : arg6.IsWhole)
    (x0 : Vec F S128x512 .f32) (x1 : Vec F S128x2048 .f32) (x2 : Vec F S2048x512 .bf16) (x3 : Vec F S2048x2048 .bf16) (x4 : Vec F S6144x512 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__kernel i arg1 harg1 arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _ _)

end Cert.Kernel.Hand

end
-- ==== Proof.RunBits.lean ====
/-
  The frame run of the kernel as printed (read at any float instance, cited at the word-level one): the proof data of its pipeline (what each staging buffer holds after
  the body at each of the 32 grid points), what the body finds in each buffer, the body obligation, and the run
  to the library's frame post.

  After the body at point t the input buffers hold what they held — rows [128 t, 128 t + 128) of the inputs,
  the same rows of the state's first 2048 columns, the three weight matrices — and the result's buffer holds
  outBlock of them. The inputs' and weights' windows tile their arrays; the state's window does not, but no
  block the index map names is cut (state_uncut), so a fetch of it overwrites the whole buffer and what the
  buffer held before does not matter (before_state).
-/
import proofs.«152846_j10806137717143_2_alg».proof.Proof.BodyBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The state's window -/

/-- At each of the 32 grid points the state's block — rows [128 t, 128 t + 128), columns [0, 2048) of an array
    of 4096 x 2560 — ends inside the array on both axes: no transfer of it is cut. -/
theorem state_uncut : ∀ (t : Fin cfg0.N) (a : Fin 2), (cfg0.win 1).clip (cfg0.grid.coords t) a = none :=
  (by decide +kernel : ∀ (t : Fin grid0.N) (a : Fin 2), win0_1.clip (grid0.coords t) a = none)

/-- The state's staging buffer once the fetch at point `t` has landed: the block, filling all of it. (The
    filler, the zero word, is at no index: `stateBlock_eq`.) -/
def stateBlock (c : Dev nD) (t : Fin cfg0.N) : S128x2048.Idx → Elt F .f32 :=
  (cfg0.win 1).fill (cfg0.grid.coords t) (fun _ => Scalar.ofBits .f32 0#32) (iblk m c 1 t)

/-- Whatever the buffer held before the fetch, it holds `stateBlock` after it. -/
theorem stateBlock_eq (c : Dev nD) (t : Fin cfg0.N) (d : S128x2048.Idx → Elt F .f32) :
    (cfg0.win 1).fill (cfg0.grid.coords t) d (iblk m c 1 t) = stateBlock m c t :=
  Pipeline.fill_of_clip_none (cfg := cfg0) 1 (cfg0.grid.coords t) (state_uncut t) d _ (iblk m c 1 t)

/-! ## The pipeline's proof data -/

/-- The proof data of the one pipeline on core `c`: the arrays as the region finds them; after the body at point
    `t` each input's buffer at its block and the result's at `outBlock` of the five; the region's invariant (the
    scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => stateBlock m c t
    | ⟨2, _⟩ => iblk m c 2 t
    | ⟨3, _⟩ => iblk m c 3 t
    | ⟨4, _⟩ => iblk m c 4 t
    | ⟨5, _⟩ => outBlock (iblk m c 0 t) (stateBlock m c t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = stateBlock m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlock (iblk m c 0 t) (stateBlock m c t) (iblk m c 2 t) (iblk m c 3 t) (iblk m c 4 t) := by
  dsimp only [dats]

/-! ## What the body finds -/

/-- The inputs' and the weights' buffers hold their blocks at every point, fetched there or not; -/
theorem before_0 (c : Dev nD) (t : Fin cfg0.N) (d) : (dats m 0 c).before 0 t d = iblk m c 0 t :=
  before0_0_of m (dats m 0 c) (A_eq m c 0) (after_0 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- the state's buffer, fetched at every point, its block there, all of the buffer. -/
theorem before_1 (c : Dev nD) (t : Fin cfg0.N) (d) : (dats m 0 c).before 1 t d = stateBlock m c t := by
  unfold Dat.before
  rw [if_pos (fetch0_1 t)]
  unfold Dat.fetched Dat.blockOf
  rw [A_eq]
  exact stateBlock_eq m c t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the five input memrefs hold their blocks, so `sound_kernel` applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (stateBlock m c t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    terminates, and every final state has every array of the pipeline at what the library computes from the proof
    data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.Spec.lean ====
/-
  The function both programs compute, index by index, on the extended reals.

  One reservoir step: from a batch of input rows x (4096 x 512), the previous state s (4096 x 2560, of which
  the first 2048 columns are active), and the weights W_in (2048 x 512), W_res (2048 x 2048) and W_gate
  (6144 x 512: the input, forget and output gates' rows stacked), the entry (r, c) of the new state for an
  active column c < 2048 is

      n = o · (4/5' · (f · s[r, c]) + 1/5' · tanh (i · (x[r,:] · W_in[c,:] + s[r,:2048] · W_res[c,:]))),
      n - 1/2 if n > 1/2, else n,

  where i, f, o are the logistic function of x[r,:] · W_gate[c,:], x[r,:] · W_gate[c + 2048,:] and
  x[r,:] · W_gate[c + 4096,:], and 4/5', 1/5' are the binary32 numbers nearest 4/5 and 1/5 (the same words in
  both programs, never evaluated here); the 512 padding columns are zero. A row of the result depends on the
  same row of x and of s only, so the function is stated per row (rowUpd) and used at two row counts: a block
  of 128 rows, and the whole arrays.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- One entry from the six numbers it depends on: the three gates, the previous state's entry, and the input's
    and the reservoir's contributions. -/
def cell (ig fg og prev ip rp : EReal) : EReal :=
  Scalar.select
    (Ideal.cmp .ogt
      (og * (Ideal.ofBits .f32 0x3F4CCCCD#32 * (fg * prev) + Ideal.ofBits .f32 0x3E4CCCCD#32 * Ideal.tanh (ig * (ip + rp))))
      (Ideal.ofBits .f32 0x3F000000#32))
    (og * (Ideal.ofBits .f32 0x3F4CCCCD#32 * (fg * prev) + Ideal.ofBits .f32 0x3E4CCCCD#32 * Ideal.tanh (ig * (ip + rp)))
      - Ideal.ofBits .f32 0x3F000000#32)
    (og * (Ideal.ofBits .f32 0x3F4CCCCD#32 * (fg * prev) + Ideal.ofBits .f32 0x3E4CCCCD#32 * Ideal.tanh (ig * (ip + rp))))

/-- A gate's value for one input row `x`: the logistic function of the row's product with row `j` of W_gate. -/
def gate (x : Fin 512 → EReal) (wg : (⟨2, ![6144, 512]⟩ : Shape).Idx → EReal) (j : Fin 6144) : EReal :=
  Ideal.logistic (∑ k : Fin 512, x k * wg (ix2 j k))

/-- Column `c` of the new active state of one row, from the row's inputs `x` and active previous state `s`. -/
def rowUpd (x : Fin 512 → EReal) (s : Fin 2048 → EReal) (win : (⟨2, ![2048, 512]⟩ : Shape).Idx → EReal)
    (wres : (⟨2, ![2048, 2048]⟩ : Shape).Idx → EReal) (wg : (⟨2, ![6144, 512]⟩ : Shape).Idx → EReal) (c : Fin 2048) : EReal :=
  cell (gate x wg ⟨c.val, by have := c.isLt; omega⟩) (gate x wg ⟨c.val + 2048, by have := c.isLt; omega⟩)
    (gate x wg ⟨c.val + 4096, by have := c.isLt; omega⟩) (s c)
    (∑ k : Fin 512, x k * win (ix2 c k)) (∑ k : Fin 2048, s k * wres (ix2 c k))

/-- The whole result: the new active state in columns [0, 2048), zeros in columns [2048, 2560). -/
def G (a0 : (⟨2, ![4096, 512]⟩ : Shape).Idx → EReal) (a1 : (⟨2, ![4096, 2560]⟩ : Shape).Idx → EReal)
    (win : (⟨2, ![2048, 512]⟩ : Shape).Idx → EReal) (wres : (⟨2, ![2048, 2048]⟩ : Shape).Idx → EReal)
    (wg : (⟨2, ![6144, 512]⟩ : Shape).Idx → EReal) : (⟨2, ![4096, 2560]⟩ : Shape).Idx → EReal := fun i =>
  if h : (i 1).val < 2048 then
    rowUpd (fun k => a0 (ix2 (i 0) k)) (fun k => a1 (ix2 (i 0) ⟨k.val, by have := k.isLt; omega⟩)) win wres wg ⟨(i 1).val, h⟩
  else 0

/-- The binary32 word of 1.0 is the number one; -/
theorem one_f32 : Ideal.ofBits .f32 0x3F800000#32 = 1 := by
  simp [Ideal.ofBits, Ideal.ieee, -EReal.coe_mul]; norm_num

/-- so the logistic function spelt as a quotient, 1 / (1 + e^(-z)) with both ones that word, is the logistic function. -/
theorem logistic_spelt (z : EReal) :
    Ideal.div (Ideal.ofBits .f32 0x3F800000#32) (Ideal.ofBits .f32 0x3F800000#32 + Ideal.exp (-z)) = Ideal.logistic z := by
  rw [one_f32]; rfl

end Cert.Spec

end
-- ==== Proof.KernelCell.lean ====
/-
  The idealized kernel's stored value read at an index of its block.

  The body's first store writes, at row p and active column q of the 128 x 2048 block, the gated update of
  Spec.rowUpd computed from row p of the loaded input block and row p of the loaded state block: its three
  matrix products are sums over the contracted axis (at the ideal values a product into a zero accumulator is
  the plain sum, and the change to bf16 before it is the identity), the three gates are the columns q,
  q + 2048 and q + 4096 of one 128 x 6144 logistic, and everything after them is entry by entry.
-/
import proofs.«152846_j10806137717143_2_alg».proof.Proof.Gen.KernelIdeal.Skeleton
import proofs.«152846_j10806137717143_2_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx Cert.Spec

/-! ### `dotIn`: rows of the left operand against rows of the right (both contracted on their last axis) -/

theorem dotIn_lhs0 (i : S128x2048.Idx) (q : dot_S128x512_S2048x512_S128x2048_1_1_0_0_n_n.contr.Idx) : (dot_S128x512_S2048x512_S128x2048_1_1_0_0_n_n.lhsIdx i q 0).val = (i 0).val := by
  unfold DotDims.lhsIdx
  rw [dif_neg (show ¬(0 : Fin S128x512.rank) ∈ dot_S128x512_S2048x512_S128x2048_1_1_0_0_n_n.lhsBatch by decide), dif_pos (show (0 : Fin S128x512.rank) ∈ dot_S128x512_S2048x512_S128x2048_1_1_0_0_n_n.lhsNonContracting by decide)]
  rfl
theorem dotIn_lhs1 (i : S128x2048.Idx) (q : dot_S128x512_S2048x512_S128x2048_1_1_0_0_n_n.contr.Idx) : (dot_S128x512_S2048x512_S128x2048_1_1_0_0_n_n.lhsIdx i q 1).val = (q ⟨0, by decide⟩).val :=
  dot_S128x512_S2048x512_S128x2048_1_1_0_0_n_n.lhsIdx_val_of_single rfl i q
theorem dotIn_rhs0 (i : S128x2048.Idx) (q : dot_S128x512_S2048x512_S128x2048_1_1_0_0_n_n.contr.Idx) : (dot_S128x512_S2048x512_S128x2048_1_1_0_0_n_n.rhsIdx i q 0).val = (i 1).val := by
  unfold DotDims.rhsIdx
  rw [dif_neg (show ¬(0 : Fin S2048x512.rank) ∈ dot_S128x512_S2048x512_S128x2048_1_1_0_0_n_n.rhsBatch by decide), dif_pos (show (0 : Fin S2048x512.rank) ∈ dot_S128x512_S2048x512_S128x2048_1_1_0_0_n_n.rhsNonContracting by decide)]
  rfl
theorem dotIn_rhs1 (i : S128x2048.Idx) (q : dot_S128x512_S2048x512_S128x2048_1_1_0_0_n_n.contr.Idx) : (dot_S128x512_S2048x512_S128x2048_1_1_0_0_n_n.rhsIdx i q 1).val = (q ⟨0, by decide⟩).val :=
  dot_S128x512_S2048x512_S128x2048_1_1_0_0_n_n.rhsIdx_val_of_single rfl i q

/-- Into a zero accumulator, at the ideal values, entry (p, q) of the product is the sum over k of
    left[p, k] · right[q, k]. -/
theorem dotIn_apply {φ₁ φ₂ : FTy} (a : FVec Ideal S128x512 φ₁) (b : FVec Ideal S2048x512 φ₂) (p : Fin 128) (q : Fin 2048) :
    matmul dot_S128x512_S2048x512_S128x2048_1_1_0_0_n_n none a b (constant (F := Ideal) S128x2048 .f32 0x00000000#32) (ix2 p q)
      = ∑ k : Fin 512, a (ix2 p k) * b (ix2 q k) := by
  simp only [matmul]
  rw [Ideal.matmul_constant_zero_apply, ← Equiv.sum_comp (ValueIdx.contrEquiv1 dot_S128x512_S2048x512_S128x2048_1_1_0_0_n_n 512 rfl rfl).symm]
  refine Finset.sum_congr rfl fun k _ => ?_
  have hk := ValueIdx.contrEquiv1_symm_val dot_S128x512_S2048x512_S128x2048_1_1_0_0_n_n 512 rfl rfl k
  have el : dot_S128x512_S2048x512_S128x2048_1_1_0_0_n_n.lhsIdx (ix2 p q) ((ValueIdx.contrEquiv1 dot_S128x512_S2048x512_S128x2048_1_1_0_0_n_n 512 rfl rfl).symm k) = ix2 p k := funext fun a => Fin.ext (by
    match a with
    | ⟨0, _⟩ => exact dotIn_lhs0 _ _
    | ⟨1, _⟩ => exact (dotIn_lhs1 _ _).trans hk)
  have er : dot_S128x512_S2048x512_S128x2048_1_1_0_0_n_n.rhsIdx (ix2 p q) ((ValueIdx.contrEquiv1 dot_S128x512_S2048x512_S128x2048_1_1_0_0_n_n 512 rfl rfl).symm k) = ix2 q k := funext fun a => Fin.ext (by
    match a with
    | ⟨0, _⟩ => exact dotIn_rhs0 _ _
    | ⟨1, _⟩ => exact (dotIn_rhs1 _ _).trans hk)
  rw [el, er]

/-! ### `dotRes`: rows of the left operand against rows of the right (both contracted on their last axis) -/

theorem dotRes_lhs0 (i : S128x2048.Idx) (q : dot_S128x2048_S2048x2048_S128x2048_1_1_0_0_n_n.contr.Idx) : (dot_S128x2048_S2048x2048_S128x2048_1_1_0_0_n_n.lhsIdx i q 0).val = (i 0).val := by
  unfold DotDims.lhsIdx
  rw [dif_neg (show ¬(0 : Fin S128x2048.rank) ∈ dot_S128x2048_S2048x2048_S128x2048_1_1_0_0_n_n.lhsBatch by decide), dif_pos (show (0 : Fin S128x2048.rank) ∈ dot_S128x2048_S2048x2048_S128x2048_1_1_0_0_n_n.lhsNonContracting by decide)]
  rfl
theorem dotRes_lhs1 (i : S128x2048.Idx) (q : dot_S128x2048_S2048x2048_S128x2048_1_1_0_0_n_n.contr.Idx) : (dot_S128x2048_S2048x2048_S128x2048_1_1_0_0_n_n.lhsIdx i q 1).val = (q ⟨0, by decide⟩).val :=
  dot_S128x2048_S2048x2048_S128x2048_1_1_0_0_n_n.lhsIdx_val_of_single rfl i q
theorem dotRes_rhs0 (i : S128x2048.Idx) (q : dot_S128x2048_S2048x2048_S128x2048_1_1_0_0_n_n.contr.Idx) : (dot_S128x2048_S2048x2048_S128x2048_1_1_0_0_n_n.rhsIdx i q 0).val = (i 1).val := by
  unfold DotDims.rhsIdx
  rw [dif_neg (show ¬(0 : Fin S2048x2048.rank) ∈ dot_S128x2048_S2048x2048_S128x2048_1_1_0_0_n_n.rhsBatch by decide), dif_pos (show (0 : Fin S2048x2048.rank) ∈ dot_S128x2048_S2048x2048_S128x2048_1_1_0_0_n_n.rhsNonContracting by decide)]
  rfl
theorem dotRes_rhs1 (i : S128x2048.Idx) (q : dot_S128x2048_S2048x2048_S128x2048_1_1_0_0_n_n.contr.Idx) : (dot_S128x2048_S2048x2048_S128x2048_1_1_0_0_n_n.rhsIdx i q 1).val = (q ⟨0, by decide⟩).val :=
  dot_S128x2048_S2048x2048_S128x2048_1_1_0_0_n_n.rhsIdx_val_of_single rfl i q

/-- Into a zero accumulator, at the ideal values, entry (p, q) of the product is the sum over k of
    left[p, k] · right[q, k]. -/
theorem dotRes_apply {φ₁ φ₂ : FTy} (a : FVec Ideal S128x2048 φ₁) (b : FVec Ideal S2048x2048 φ₂) (p : Fin 128) (q : Fin 2048) :
    matmul dot_S128x2048_S2048x2048_S128x2048_1_1_0_0_n_n none a b (constant (F := Ideal) S128x2048 .f32 0x00000000#32) (ix2 p q)
      = ∑ k : Fin 2048, a (ix2 p k) * b (ix2 q k) := by
  simp only [matmul]
  rw [Ideal.matmul_constant_zero_apply, ← Equiv.sum_comp (ValueIdx.contrEquiv1 dot_S128x2048_S2048x2048_S128x2048_1_1_0_0_n_n 2048 rfl rfl).symm]
  refine Finset.sum_congr rfl fun k _ => ?_
  have hk := ValueIdx.contrEquiv1_symm_val dot_S128x2048_S2048x2048_S128x2048_1_1_0_0_n_n 2048 rfl rfl k
  have el : dot_S128x2048_S2048x2048_S128x2048_1_1_0_0_n_n.lhsIdx (ix2 p q) ((ValueIdx.contrEquiv1 dot_S128x2048_S2048x2048_S128x2048_1_1_0_0_n_n 2048 rfl rfl).symm k) = ix2 p k := funext fun a => Fin.ext (by
    match a with
    | ⟨0, _⟩ => exact dotRes_lhs0 _ _
    | ⟨1, _⟩ => exact (dotRes_lhs1 _ _).trans hk)
  have er : dot_S128x2048_S2048x2048_S128x2048_1_1_0_0_n_n.rhsIdx (ix2 p q) ((ValueIdx.contrEquiv1 dot_S128x2048_S2048x2048_S128x2048_1_1_0_0_n_n 2048 rfl rfl).symm k) = ix2 q k := funext fun a => Fin.ext (by
    match a with
    | ⟨0, _⟩ => exact dotRes_rhs0 _ _
    | ⟨1, _⟩ => exact (dotRes_rhs1 _ _).trans hk)
  rw [el, er]

/-! ### `dotGate`: rows of the left operand against rows of the right (both contracted on their last axis) -/

theorem dotGate_lhs0 (i : S128x6144.Idx) (q : dot_S128x512_S6144x512_S128x6144_1_1_0_0_n_n.contr.Idx) : (dot_S128x512_S6144x512_S128x6144_1_1_0_0_n_n.lhsIdx i q 0).val = (i 0).val := by
  unfold DotDims.lhsIdx
  rw [dif_neg (show ¬(0 : Fin S128x512.rank) ∈ dot_S128x512_S6144x512_S128x6144_1_1_0_0_n_n.lhsBatch by decide), dif_pos (show (0 : Fin S128x512.rank) ∈ dot_S128x512_S6144x512_S128x6144_1_1_0_0_n_n.lhsNonContracting by decide)]
  rfl
theorem dotGate_lhs1 (i : S128x6144.Idx) (q : dot_S128x512_S6144x512_S128x6144_1_1_0_0_n_n.contr.Idx) : (dot_S128x512_S6144x512_S128x6144_1_1_0_0_n_n.lhsIdx i q 1).val = (q ⟨0, by decide⟩).val :=
  dot_S128x512_S6144x512_S128x6144_1_1_0_0_n_n.lhsIdx_val_of_single rfl i q
theorem dotGate_rhs0 (i : S128x6144.Idx) (q : dot_S128x512_S6144x512_S128x6144_1_1_0_0_n_n.contr.Idx) : (dot_S128x512_S6144x512_S128x6144_1_1_0_0_n_n.rhsIdx i q 0).val = (i 1).val := by
  unfold DotDims.rhsIdx
  rw [dif_neg (show ¬(0 : Fin S6144x512.rank) ∈ dot_S128x512_S6144x512_S128x6144_1_1_0_0_n_n.rhsBatch by decide), dif_pos (show (0 : Fin S6144x512.rank) ∈ dot_S128x512_S6144x512_S128x6144_1_1_0_0_n_n.rhsNonContracting by decide)]
  rfl
theorem dotGate_rhs1 (i : S128x6144.Idx) (q : dot_S128x512_S6144x512_S128x6144_1_1_0_0_n_n.contr.Idx) : (dot_S128x512_S6144x512_S128x6144_1_1_0_0_n_n.rhsIdx i q 1).val = (q ⟨0, by decide⟩).val :=
  dot_S128x512_S6144x512_S128x6144_1_1_0_0_n_n.rhsIdx_val_of_single rfl i q

/-- Into a zero accumulator, at the ideal values, entry (p, q) of the product is the sum over k of
    left[p, k] · right[q, k]. -/
theorem dotGate_apply {φ₁ φ₂ : FTy} (a : FVec Ideal S128x512 φ₁) (b : FVec Ideal S6144x512 φ₂) (p : Fin 128) (q : Fin 6144) :
    matmul dot_S128x512_S6144x512_S128x6144_1_1_0_0_n_n none a b (constant (F := Ideal) S128x6144 .f32 0x00000000#32) (ix2 p q)
      = ∑ k : Fin 512, a (ix2 p k) * b (ix2 q k) := by
  simp only [matmul]
  rw [Ideal.matmul_constant_zero_apply, ← Equiv.sum_comp (ValueIdx.contrEquiv1 dot_S128x512_S6144x512_S128x6144_1_1_0_0_n_n 512 rfl rfl).symm]
  refine Finset.sum_congr rfl fun k _ => ?_
  have hk := ValueIdx.contrEquiv1_symm_val dot_S128x512_S6144x512_S128x6144_1_1_0_0_n_n 512 rfl rfl k
  have el : dot_S128x512_S6144x512_S128x6144_1_1_0_0_n_n.lhsIdx (ix2 p q) ((ValueIdx.contrEquiv1 dot_S128x512_S6144x512_S128x6144_1_1_0_0_n_n 512 rfl rfl).symm k) = ix2 p k := funext fun a => Fin.ext (by
    match a with
    | ⟨0, _⟩ => exact dotGate_lhs0 _ _
    | ⟨1, _⟩ => exact (dotGate_lhs1 _ _).trans hk)
  have er : dot_S128x512_S6144x512_S128x6144_1_1_0_0_n_n.rhsIdx (ix2 p q) ((ValueIdx.contrEquiv1 dot_S128x512_S6144x512_S128x6144_1_1_0_0_n_n 512 rfl rfl).symm k) = ix2 q k := funext fun a => Fin.ext (by
    match a with
    | ⟨0, _⟩ => exact dotGate_rhs0 _ _
    | ⟨1, _⟩ => exact (dotGate_rhs1 _ _).trans hk)
  rw [el, er]

/-! ## The body's three products and its gates, as vectors of the block -/

/-- The input's contribution, the reservoir's, and the 128 x 6144 gates, as the body computes them from its loads. -/
def ipV (x0 : Vec Ideal S128x512 .f32) (w2 : Vec Ideal S2048x512 .bf16) : FVec Ideal S128x2048 .f32 :=
  matmul dot_S128x512_S2048x512_S128x2048_1_1_0_0_n_n none (truncf .bf16 x0 bitsLt_bf16_f32 : FVec Ideal S128x512 .bf16)
    (shapeCast S2048x512 w2 shapeCasts_S2048x512_S2048x512 : FVec Ideal S2048x512 .bf16) (constant S128x2048 .f32 0x00000000#32)
def rpV (x1 : Vec Ideal S128x2048 .f32) (w3 : Vec Ideal S2048x2048 .bf16) : FVec Ideal S128x2048 .f32 :=
  matmul dot_S128x2048_S2048x2048_S128x2048_1_1_0_0_n_n none (truncf .bf16 x1 bitsLt_bf16_f32 : FVec Ideal S128x2048 .bf16)
    (shapeCast S2048x2048 w3 shapeCasts_S2048x2048_S2048x2048 : FVec Ideal S2048x2048 .bf16) (constant S128x2048 .f32 0x00000000#32)
def gateV (x0 : Vec Ideal S128x512 .f32) (w4 : Vec Ideal S6144x512 .bf16) : FVec Ideal S128x6144 .f32 :=
  logistic (matmul dot_S128x512_S6144x512_S128x6144_1_1_0_0_n_n none (truncf .bf16 x0 bitsLt_bf16_f32 : FVec Ideal S128x512 .bf16)
    (shapeCast S6144x512 w4 shapeCasts_S6144x512_S6144x512 : FVec Ideal S6144x512 .bf16) (constant S128x6144 .f32 0x00000000#32))

theorem ipV_apply (x0 : Vec Ideal S128x512 .f32) (w2 : Vec Ideal S2048x512 .bf16) (p : Fin 128) (q : Fin 2048) :
    ipV x0 w2 (ix2 p q) = ∑ k : Fin 512, x0 (ix2 p k) * w2 (ix2 q k) := by
  unfold ipV
  rw [shapeCast_self]
  exact dotIn_apply _ _ p q

theorem rpV_apply (x1 : Vec Ideal S128x2048 .f32) (w3 : Vec Ideal S2048x2048 .bf16) (p : Fin 128) (q : Fin 2048) :
    rpV x1 w3 (ix2 p q) = ∑ k : Fin 2048, x1 (ix2 p k) * w3 (ix2 q k) := by
  unfold rpV
  rw [shapeCast_self]
  exact dotRes_apply _ _ p q

theorem gateV_apply (x0 : Vec Ideal S128x512 .f32) (w4 : Vec Ideal S6144x512 .bf16) (p : Fin 128) (j : Fin 6144) :
    gateV x0 w4 (ix2 p j) = gate (fun k => x0 (ix2 p k)) w4 j := by
  unfold gateV gate
  rw [shapeCast_self]
  exact congrArg Ideal.logistic (dotGate_apply _ _ p j)

/-! ## The stored value at an index -/

/-- Everything after the products is entry by entry: the stored value at (p, q) is `cell` of the three gate
    columns, the state's entry and the two contributions there. -/
theorem pay_cell (x0 : Vec Ideal S128x512 .f32) (x1 : Vec Ideal S128x2048 .f32) (w2 : Vec Ideal S2048x512 .bf16)
    (w3 : Vec Ideal S2048x2048 .bf16) (w4 : Vec Ideal S6144x512 .bf16) (p : Fin 128) (q : Fin 2048) :
    k0_pay1 x0 x1 w2 w3 w4 (ix2 p q)
      = cell (extractStridedSlice S128x2048 ![0, 0] (gateV x0 w4) slices_S128x6144_o0_0_S128x2048 (ix2 p q))
          (extractStridedSlice S128x2048 ![0, 2048] (gateV x0 w4) slices_S128x6144_o0_2048_S128x2048 (ix2 p q))
          (extractStridedSlice S128x2048 ![0, 4096] (gateV x0 w4) slices_S128x6144_o0_4096_S128x2048 (ix2 p q))
          (x1 (ix2 p q)) (ipV x0 w2 (ix2 p q)) (rpV x1 w3 (ix2 p q)) := rfl

/-- The stored value at row p, active column q of the block is the row's gated update there. -/
theorem pay_apply (x0 : Vec Ideal S128x512 .f32) (x1 : Vec Ideal S128x2048 .f32) (w2 : Vec Ideal S2048x512 .bf16)
    (w3 : Vec Ideal S2048x2048 .bf16) (w4 : Vec Ideal S6144x512 .bf16) (p : Fin 128) (q : Fin 2048) :
    k0_pay1 x0 x1 w2 w3 w4 (ix2 p q) = rowUpd (fun k => x0 (ix2 p k)) (fun k => x1 (ix2 p k)) w2 w3 w4 q := by
  have hq : q.val < 2048 := q.isLt
  rw [pay_cell, ipV_apply, rpV_apply]
  rw [extractStridedSlice_apply ![0, 0] (gateV x0 w4) slices_S128x6144_o0_0_S128x2048 (ix2 p q) (ix2 p ⟨q.val, by omega⟩)
      (fun a => match a with
        | ⟨0, _⟩ => by show p.val = 0 + p.val; omega
        | ⟨1, _⟩ => by show q.val = 0 + q.val; omega),
    extractStridedSlice_apply ![0, 2048] (gateV x0 w4) slices_S128x6144_o0_2048_S128x2048 (ix2 p q) (ix2 p ⟨q.val + 2048, by omega⟩)
      (fun a => match a with
        | ⟨0, _⟩ => by show p.val = 0 + p.val; omega
        | ⟨1, _⟩ => by show q.val + 2048 = 2048 + q.val; omega),
    extractStridedSlice_apply ![0, 4096] (gateV x0 w4) slices_S128x6144_o0_4096_S128x2048 (ix2 p q) (ix2 p ⟨q.val + 4096, by omega⟩)
      (fun a => match a with
        | ⟨0, _⟩ => by show p.val = 0 + p.val; omega
        | ⟨1, _⟩ => by show q.val + 4096 = 4096 + q.val; omega),
    gateV_apply, gateV_apply, gateV_apply]
  rfl

/-- The second store's value is the zero word everywhere. -/
theorem pad_apply (y : S128x512.Idx) : (k0_pay2 (F := Ideal)) y = 0 := by
  show Ideal.ofBits .f32 0x00000000#32 = 0
  exact Ideal.ofBits_zero_f32

end Cert.KernelIdeal.Hand

end
-- ==== Proof.KernelValue.lean ====
/-
  The idealized kernel's result array as one function of its arguments.

  Point t writes back rows [128 t, 128 t + 128) of the result, all 2560 columns; the 32 points' blocks tile
  the 4096 rows. What the body leaves at point t is outBlock of the staged blocks, and those are the arrays
  read at the same rows: row p of the input block is row 128 t + p of the inputs, row p of the state block
  is the active part of row 128 t + p of the state, and the weight blocks are the whole weight matrices,
  which the host's conversions to bf16 before the call leave numerically unchanged. So the block written at
  t is block t of Spec.G of the arguments, and the array ends as Spec.G of them.
-/
import proofs.«152846_j10806137717143_2_alg».proof.Proof.Run
import proofs.«152846_j10806137717143_2_alg».proof.Proof.KernelCell
import Idealize.ShloMosaic.Lib.Pipeline.Value
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo Cert.Spec
open Idealize.ShloMosaic.Pipeline (Dat)

variable (m : (ℓ : Loc nD τ sig) → Buf (Elt Ideal) ℓ) (ρ : Dev nD → PrngReg)

/-! ## The arrays as the region finds them -/

/-- The three converted weight matrices are, on the extended reals, the weight arguments. -/
theorem V_win (c : Dev nD) : (V m c main_v0 : S2048x512.Idx → EReal) = m ((c : Thread nD τ).loc main_arg2) := by
  dsimp only [Gen.V, Gen.hostOps0]; after_results; rfl
theorem V_wres (c : Dev nD) : (V m c main_v1 : S2048x2048.Idx → EReal) = m ((c : Thread nD τ).loc main_arg3) := by
  dsimp only [Gen.V, Gen.hostOps0]; after_results; rfl
theorem V_wgate (c : Dev nD) : (V m c main_v2 : S6144x512.Idx → EReal) = m ((c : Thread nD τ).loc main_arg4) := by
  dsimp only [Gen.V, Gen.hostOps0]; after_results; rfl

/-! ## The index maps, decided over the grid -/

/-- At point t the inputs', the state's and the result's blocks are row block t, column block 0; the weights'
    blocks are the block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The staged blocks are the arrays at the point's rows -/

theorem in_block (c : Dev nD) (t : Fin cfg0.N) (p : Fin 128) (k : Fin 512) :
    iblk m c 0 t (ix2 p k) = V m c main_arg0 (ix2 ⟨t.val * 128 + p.val, by have := t.isLt; have : cfg0.N = 32 := N_0; have := p.isLt; omega⟩ k) := by
  obtain ⟨e0, e1, -⟩ := idx_facts t
  show V m c main_arg0 (((cfg0.win 0).blk t).view.emb (ix2 p k)) = _
  refine congrArg (V m c main_arg0) (funext fun a => Fin.ext ?_)
  match a with
  | ⟨0, _⟩ => show win0_0.index t (0 : Fin 2) * 128 + 1 * p.val = t.val * 128 + p.val; rw [e0]; omega
  | ⟨1, _⟩ => show win0_0.index t (1 : Fin 2) * 512 + 1 * k.val = k.val; rw [e1]; omega

theorem state_block (c : Dev nD) (t : Fin cfg0.N) (p : Fin 128) (k : Fin 2048) :
    stateBlock m c t (ix2 p k)
      = V m c main_arg1 (ix2 ⟨t.val * 128 + p.val, by have := t.isLt; have : cfg0.N = 32 := N_0; have := p.isLt; omega⟩
          ⟨k.val, by have := k.isLt; omega⟩) := by
  obtain ⟨-, -, e0, e1, -⟩ := idx_facts t
  have hx : ∀ a, ((ix2 p k : S128x2048.Idx) a).val < (cfg0.win 1).xsize (cfg0.grid.coords t) a := fun a => by
    show _ < ((cfg0.win 1).clip (cfg0.grid.coords t) a).extent ((cfg0.win 1).size a)
    rw [state_uncut t a]; exact ((ix2 p k : S128x2048.Idx) a).isLt
  refine ((cfg0.win 1).fill_xinj (cfg0.grid.coords t) _ (iblk m c 1 t) (fun a => ⟨((ix2 p k : S128x2048.Idx) a).val, hx a⟩)).trans ?_
  show V m c main_arg1 (((cfg0.win 1).blk t).view.emb _) = _
  refine congrArg (V m c main_arg1) (funext fun a => Fin.ext ?_)
  match a with
  | ⟨0, _⟩ => show win0_1.index t (0 : Fin 2) * 128 + 1 * p.val = t.val * 128 + p.val; rw [e0]; omega
  | ⟨1, _⟩ => show win0_1.index t (1 : Fin 2) * 2048 + 1 * k.val = k.val; rw [e1]; omega

theorem win_block (c : Dev nD) (t : Fin cfg0.N) : (iblk m c 2 t : S2048x512.Idx → EReal) = V m c main_v0 := by
  obtain ⟨-, -, -, -, e0, e1, -⟩ := idx_facts t
  funext y
  show V m c main_v0 (((cfg0.win 2).blk t).view.emb y) = _
  refine congrArg (V m c main_v0) (funext fun a => Fin.ext ?_)
  match a with
  | ⟨0, _⟩ => show win0_2.index t (0 : Fin 2) * 2048 + 1 * (y 0).val = (y 0).val; rw [e0]; omega
  | ⟨1, _⟩ => show win0_2.index t (1 : Fin 2) * 512 + 1 * (y 1).val = (y 1).val; rw [e1]; omega

theorem wres_block (c : Dev nD) (t : Fin cfg0.N) : (iblk m c 3 t : S2048x2048.Idx → EReal) = V m c main_v1 := by
  obtain ⟨-, -, -, -, -, -, e0, e1, -⟩ := idx_facts t
  funext y
  show V m c main_v1 (((cfg0.win 3).blk t).view.emb y) = _
  refine congrArg (V m c main_v1) (funext fun a => Fin.ext ?_)
  match a with
  | ⟨0, _⟩ => show win0_3.index t (0 : Fin 2) * 2048 + 1 * (y 0).val = (y 0).val; rw [e0]; omega
  | ⟨1, _⟩ => show win0_3.index t (1 : Fin 2) * 2048 + 1 * (y 1).val = (y 1).val; rw [e1]; omega

theorem wgate_block (c : Dev nD) (t : Fin cfg0.N) : (iblk m c 4 t : S6144x512.Idx → EReal) = V m c main_v2 := by
  obtain ⟨-, -, -, -, -, -, -, -, e0, e1, -⟩ := idx_facts t
  funext y
  show V m c main_v2 (((cfg0.win 4).blk t).view.emb y) = _
  refine congrArg (V m c main_v2) (funext fun a => Fin.ext ?_)
  match a with
  | ⟨0, _⟩ => show win0_4.index t (0 : Fin 2) * 6144 + 1 * (y 0).val = (y 0).val; rw [e0]; omega
  | ⟨1, _⟩ => show win0_4.index t (1 : Fin 2) * 512 + 1 * (y 1).val = (y 1).val; rw [e1]; omega

/-! ## The block the body leaves is a block of `G` -/

theorem hz : (![0, 0] : Fin 2 → Nat) = fun _ => 0 := funext fun a => by fin_cases a <;> rfl

/-- The two stores read back at an index, whatever their values: at an active column the update's value, -/
theorem canon_active (p0 : Vec Ideal S128x512 .f32) (p1 : Vec Ideal S128x2048 .f32) (a : Fin 128) (b : Fin 2048) :
    View.canon [(⟨rPad, p0⟩ : View.Piece (Elt Ideal) S128x2560 .f32), ⟨rActive, p1⟩] (ix2 a ⟨b.val, by have := b.isLt; omega⟩)
      = p1 (ix2 a b) := by
  have hb : b.val < 2048 := b.isLt
  have hnot : (ix2 a ⟨b.val, by omega⟩ : S128x2560.Idx) ∉ (rPad).set := fun hm => by
    have := (Rect.mem_set_unit (inb := inb_S128x2560_S128x512_0_2048)).mp hm ⟨1, by decide⟩
    have h2 : 2048 ≤ b.val := this.1
    omega
  have hemb : (ix2 a ⟨b.val, by omega⟩ : S128x2560.Idx) = (rActive).emb (ix2 a b) := funext fun d => Fin.ext (by
    match d with
    | ⟨0, _⟩ => show a.val = 0 + 1 * a.val; omega
    | ⟨1, _⟩ => show b.val = 0 + 1 * b.val; omega)
  rw [View.canon_cons_of_not_mem (⟨rPad, p0⟩ : View.Piece (Elt Ideal) S128x2560 .f32) [⟨rActive, p1⟩] hnot, hemb]
  exact View.canon_cons_emb rActive p1 [] (ix2 a b)

/-- at a padding column the last store's. -/
theorem canon_pad (p0 : Vec Ideal S128x512 .f32) (p1 : Vec Ideal S128x2048 .f32) (a : Fin 128) (b : Fin 512) :
    View.canon [(⟨rPad, p0⟩ : View.Piece (Elt Ideal) S128x2560 .f32), ⟨rActive, p1⟩] (ix2 a ⟨2048 + b.val, by have := b.isLt; omega⟩)
      = p0 (ix2 a b) := by
  have hb : b.val < 512 := b.isLt
  have hemb : (ix2 a ⟨2048 + b.val, by omega⟩ : S128x2560.Idx) = (rPad).emb (ix2 a b) := funext fun d => Fin.ext (by
    match d with
    | ⟨0, _⟩ => show a.val = 0 + 1 * a.val; omega
    | ⟨1, _⟩ => show 2048 + b.val = 2048 + 1 * b.val; omega)
  rw [hemb]
  exact View.canon_cons_emb rPad p0 [⟨rActive, p1⟩] (ix2 a b)

/-- `G` at an active column is the row's update; at a padding column it is zero. -/
theorem G_active (a0 : S4096x512.Idx → EReal) (a1 : S4096x2560.Idx → EReal) (w2 : S2048x512.Idx → EReal)
    (w3 : S2048x2048.Idx → EReal) (w4 : S6144x512.Idx → EReal) (r : Fin 4096) (b : Fin 2560) (h : b.val < 2048) :
    G a0 a1 w2 w3 w4 (ix2 r b)
      = rowUpd (fun k => a0 (ix2 r k)) (fun k => a1 (ix2 r ⟨k.val, by have := k.isLt; omega⟩)) w2 w3 w4 ⟨b.val, h⟩ := by
  unfold G
  exact dif_pos h

theorem G_pad (a0 : S4096x512.Idx → EReal) (a1 : S4096x2560.Idx → EReal) (w2 : S2048x512.Idx → EReal)
    (w3 : S2048x2048.Idx → EReal) (w4 : S6144x512.Idx → EReal) (r : Fin 4096) (b : Fin 2560) (h : ¬b.val < 2048) :
    G a0 a1 w2 w3 w4 (ix2 r b) = 0 := by
  unfold G
  exact dif_neg h

/-- The loads are whole: what the result's buffer holds is the two stores over the loaded blocks themselves. -/
theorem outBlock_eq (x0 : Vec Ideal S128x512 .f32) (x1 : Vec Ideal S128x2048 .f32) (w2 : Vec Ideal S2048x512 .bf16)
    (w3 : Vec Ideal S2048x2048 .bf16) (w4 : Vec Ideal S6144x512 .bf16) :
    outBlock x0 x1 w2 w3 w4
      = View.canon [(⟨rPad, k0_pay2 (F := Ideal)⟩ : View.Piece (Elt Ideal) S128x2560 .f32), ⟨rActive, k0_pay1 x0 x1 w2 w3 w4⟩] := by
  unfold outBlock
  rw [View.ld_unit_zero (S := S128x512) hz inb_S128x512_S128x512_0_0 x0, View.ld_unit_zero (S := S128x2048) hz inb_S128x2048_S128x2048_0_0 x1,
    View.ld_unit_zero (S := S2048x512) hz inb_S2048x512_S2048x512_0_0 w2, View.ld_unit_zero (S := S2048x2048) hz inb_S2048x2048_S2048x2048_0_0 w3,
    View.ld_unit_zero (S := S6144x512) hz inb_S6144x512_S6144x512_0_0 w4]

/-- Over any blocks that are rows [128 T, 128 T + 128) of arrays `a0`, `a1`: what the body leaves at block index
    `y` is `G` at row 128 T + y₀, column y₁. -/
theorem outBlock_apply (a0 : S4096x512.Idx → EReal) (a1 : S4096x2560.Idx → EReal) (w2 : Vec Ideal S2048x512 .bf16)
    (w3 : Vec Ideal S2048x2048 .bf16) (w4 : Vec Ideal S6144x512 .bf16) (x0 : Vec Ideal S128x512 .f32) (x1 : Vec Ideal S128x2048 .f32)
    (T : Nat) (hT : T < 32)
    (h0 : ∀ (p : Fin 128) (k : Fin 512), x0 (ix2 p k) = a0 (ix2 ⟨T * 128 + p.val, by have := p.isLt; omega⟩ k))
    (h1 : ∀ (p : Fin 128) (k : Fin 2048), x1 (ix2 p k) = a1 (ix2 ⟨T * 128 + p.val, by have := p.isLt; omega⟩ ⟨k.val, by have := k.isLt; omega⟩))
    (a : Fin 128) (b : Fin 2560) :
    outBlock x0 x1 w2 w3 w4 (ix2 a b) = G a0 a1 w2 w3 w4 (ix2 ⟨T * 128 + a.val, by have := a.isLt; omega⟩ b) := by
  have ha : a.val < 128 := a.isLt
  have hb : b.val < 2560 := b.isLt
  rw [outBlock_eq]
  by_cases h : b.val < 2048
  · -- an active column
    rw [G_active a0 a1 w2 w3 w4 _ b h]
    refine (canon_active _ _ a ⟨b.val, h⟩).trans ?_
    rw [pay_apply, show (fun k => x0 (ix2 a k)) = fun k => a0 (ix2 ⟨T * 128 + a.val, by omega⟩ k) from funext (h0 a),
      show (fun k => x1 (ix2 a k)) = fun k => a1 (ix2 ⟨T * 128 + a.val, by omega⟩ ⟨k.val, by have := k.isLt; omega⟩) from funext (h1 a)]
  · -- a padding column
    rw [G_pad a0 a1 w2 w3 w4 _ b h]
    have e : (ix2 a b : S128x2560.Idx) = ix2 a ⟨2048 + (b.val - 2048), by omega⟩ :=
      funext fun d => Fin.ext (by
        match d with
        | ⟨0, _⟩ => rfl
        | ⟨1, _⟩ => show b.val = 2048 + (b.val - 2048); omega)
    rw [e]
    refine (canon_pad _ _ a ⟨b.val - 2048, by omega⟩).trans ?_
    exact pad_apply _

/-- What point `t` writes back is block `t` of `G` of the arrays as the region finds them. -/
theorem flushed_eq (c : Dev nD) (t : Fin cfg0.N) :
    (dats m 0 c).flushed 5 t = ((cfg0.win 5).blk t).view.read (Elt Ideal)
      (G (V m c main_arg0) (V m c main_arg1) (V m c main_v0) (V m c main_v1) (V m c main_v2)) := by
  have ht : t.val < 32 := by have := t.isLt; have : cfg0.N = 32 := N_0; omega
  obtain ⟨-, -, -, -, -, -, -, -, -, -, e0, e1⟩ := idx_facts t
  show (cfg0.win 5).cut (grid0.coords t) ((dats m 0 c).after 5 t) = _
  rw [after_5, win_block, wres_block, wgate_block]
  funext y
  show outBlock (iblk m c 0 t) (stateBlock m c t) (V m c main_v0) (V m c main_v1) (V m c main_v2) ((cfg0.win 5).xinj (grid0.coords t) y)
    = G (V m c main_arg0) (V m c main_arg1) (V m c main_v0) (V m c main_v1) (V m c main_v2) (((cfg0.win 5).blk t).view.emb y)
  have hy : ((cfg0.win 5).xinj (grid0.coords t) y : S128x2560.Idx) = ix2 (⟨(y 0).val, (y 0).isLt⟩ : Fin 128) (⟨(y 1).val, (y 1).isLt⟩ : Fin 2560) :=
    funext fun d => Fin.ext (by match d with | ⟨0, _⟩ => rfl | ⟨1, _⟩ => rfl)
  rw [hy]
  refine (outBlock_apply (V m c main_arg0) (V m c main_arg1) (V m c main_v0) (V m c main_v1) (V m c main_v2)
    (iblk m c 0 t) (stateBlock m c t) t.val ht (in_block m c t) (state_block m c t) ⟨(y 0).val, (y 0).isLt⟩ ⟨(y 1).val, (y 1).isLt⟩).trans ?_
  refine congrArg _ (funext fun a => Fin.ext ?_)
  match a with
  | ⟨0, _⟩ => show t.val * 128 + (y 0).val = win0_5.index t (0 : Fin 2) * 128 + 1 * (y 0).val; rw [e0]; omega
  | ⟨1, _⟩ => show (y 1).val = win0_5.index t (1 : Fin 2) * 2560 + 1 * (y 1).val; rw [e1]; omega

/-! ## From blocks to the array -/

/-- An index of the result is in point `t`'s block iff each coordinate is in the block's range on its axis. -/
theorem mem_blk (t : Fin cfg0.N) (i : S4096x2560.Idx) :
    i ∈ ((cfg0.win 5).blk t).view.set ↔ ∀ a : Fin 2, win0_5.index t a * S128x2560.size a ≤ (i a).val
      ∧ (i a).val < win0_5.index t a * S128x2560.size a + S128x2560.size a := by
  show i ∈ ((View.whole main_v3).slice (win0_5.rect t)).set ↔ _
  rw [View.set_slice_whole, Rect.mem_set_unit]
  exact Iff.rfl

/-- Every index of the result is in the block of the point its row falls in. -/
theorem covered (i : S4096x2560.Idx) : ∃ t : Fin cfg0.N, (cfg0.win 5).flush t = true ∧ i ∈ ((cfg0.win 5).blk t).view.set := by
  have hi0 : (i 0).val < 4096 := (i 0).isLt
  have hi1 : (i 1).val < 2560 := (i 1).isLt
  have hN : cfg0.N = 32 := N_0
  refine ⟨⟨(i 0).val / 128, by omega⟩, flush0_5 _, ?_⟩
  obtain ⟨-, -, -, -, -, -, -, -, -, -, e0, e1⟩ := idx_facts ⟨(i 0).val / 128, by omega⟩
  rw [mem_blk]
  intro a
  match a with
  | ⟨0, _⟩ =>
    show win0_5.index _ (0 : Fin 2) * 128 ≤ (i 0).val ∧ (i 0).val < win0_5.index _ (0 : Fin 2) * 128 + 128
    rw [e0]; show (i 0).val / 128 * 128 ≤ (i 0).val ∧ (i 0).val < (i 0).val / 128 * 128 + 128; omega
  | ⟨1, _⟩ =>
    show win0_5.index _ (1 : Fin 2) * 2560 ≤ (i 1).val ∧ (i 1).val < win0_5.index _ (1 : Fin 2) * 2560 + 2560
    rw [e1]; omega

/-- The result array after the run is `G` of the arrays as the region finds them; -/
theorem final (c : Dev nD) : (dats m 0 c).arrAt 5 cfg0.N
    = G (V m c main_arg0) (V m c main_arg1) (V m c main_v0) (V m c main_v1) (V m c main_v2) :=
  (dats m 0 c).arrAt_eq_of_cover 5 _ (fun t _ => flushed_eq m c t) covered

/-- that is, of the five arguments as launched. -/
theorem final_args (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  rw [final, V_win, V_wres, V_wgate, V_main_arg0, V_main_arg1]

/-! ## The run, read -/

/-- Every weakly fair execution of the idealized kernel terminates with the result array at `G` of the arguments
    and the arguments unchanged. -/
theorem run : θ_run defs (onTc (τ := τ) (main (F := Ideal))) ⟨m, fun _ => 0, ρ⟩ fun r => ∀ c : Dev nD,
      r.2.mem ((c : Thread nD τ).loc main_v3)
        = G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final_args m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Hand

end
-- ==== Proof.RefCell.lean ====
/-
  The reference's result read at an index.

  The reference slices the active columns of the state, forms the three products against the transposed
  weights, spells the logistic function of the gate product as 1 / (1 + e^(-z)), takes the three gates as
  column blocks of it, combines entry by entry and pads with zeros. Read at row r and active column c its
  unpadded result is Spec.rowUpd of row r of the inputs and of the state; a product against a transposed
  matrix is the sum over k of left[r, k] · weight[c, k]; the padded result is Spec.G.
-/
import proofs.«152846_j10806137717143_2_alg».proof.Proof.Gen.ReferenceIdeal.Read
import proofs.«152846_j10806137717143_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Spec

/-! ## The three products -/

/-- The input's contribution at (r, c): row r of the inputs against row c of W_in. -/
theorem inProd_apply (x0 : (⟨S4096x512, .f32⟩ : BufTy).Contents (Elt Ideal)) (x2 : (⟨S2048x512, .f32⟩ : BufTy).Contents (Elt Ideal)) (r : Fin 4096) (c : Fin 2048) :
    val_main_v2 (F := Ideal) x0 x2 (ix2 r c) = ∑ k : Fin 512, x0 (ix2 r k) * x2 (ix2 c k) := by
  rw [val_main_v2_apply]
  refine Finset.sum_congr rfl fun k _ => ?_
  rw [val_main_v1_apply]
  have e0 : lidx_main_v2 (ix2 r c) k = ix2 r k := funext fun a => Fin.ext (by match a with | ⟨0, _⟩ => rfl | ⟨1, _⟩ => rfl)
  have e1 : idx_main_v1 (ridx_main_v2 (ix2 r c) k) = ix2 c k := funext fun a => Fin.ext (by match a with | ⟨0, _⟩ => rfl | ⟨1, _⟩ => rfl)
  rw [e0, e1]

/-- The reservoir's contribution at (r, c): the active part of row r of the state against row c of W_res. -/
theorem resProd_apply (x1 : (⟨S4096x2560, .f32⟩ : BufTy).Contents (Elt Ideal)) (x3 : (⟨S2048x2048, .f32⟩ : BufTy).Contents (Elt Ideal)) (r : Fin 4096) (c : Fin 2048) :
    val_main_v4 (F := Ideal) x1 x3 (ix2 r c)
      = ∑ k : Fin 2048, x1 (ix2 r ⟨k.val, by have := k.isLt; omega⟩) * x3 (ix2 c k) := by
  rw [val_main_v4_apply]
  refine Finset.sum_congr rfl fun k _ => ?_
  rw [val_main_v0_apply, val_main_v3_apply]
  have e0 : idx_main_v0 (lidx_main_v4 (ix2 r c) k) = ix2 r ⟨k.val, by have := k.isLt; omega⟩ :=
    funext fun a => Fin.ext (by match a with | ⟨0, _⟩ => rfl | ⟨1, _⟩ => rfl)
  have e1 : idx_main_v3 (ridx_main_v4 (ix2 r c) k) = ix2 c k := funext fun a => Fin.ext (by match a with | ⟨0, _⟩ => rfl | ⟨1, _⟩ => rfl)
  rw [e0, e1]

/-- The gates at (r, j): the logistic function, spelt as a quotient, of row r of the inputs against row j of W_gate. -/
theorem gates_apply (x0 : (⟨S4096x512, .f32⟩ : BufTy).Contents (Elt Ideal)) (x4 : (⟨S6144x512, .f32⟩ : BufTy).Contents (Elt Ideal)) (r : Fin 4096) (j : Fin 6144) :
    val_main_v12 (F := Ideal) x0 x4 (ix2 r j) = gate (fun k => x0 (ix2 r k)) x4 j := by
  rw [val_main_v12_apply, val_main_v11_apply, val_main_cst_0_apply, val_main_v10_apply, val_main_v9_apply, val_main_cst_apply,
    val_main_v8_apply, val_main_v7_apply, val_main_v6_apply]
  have es : (∑ k : Fin 512, x0 (lidx_main_v6 (ix2 r j) k) * (val_main_v5 (F := Ideal) x4) (ridx_main_v6 (ix2 r j) k))
      = ∑ k : Fin 512, x0 (ix2 r k) * x4 (ix2 j k) := by
    refine Finset.sum_congr rfl fun k _ => ?_
    rw [val_main_v5_apply]
    have e0 : lidx_main_v6 (ix2 r j) k = ix2 r k := funext fun a => Fin.ext (by match a with | ⟨0, _⟩ => rfl | ⟨1, _⟩ => rfl)
    have e1 : idx_main_v5 (ridx_main_v6 (ix2 r j) k) = ix2 j k := funext fun a => Fin.ext (by match a with | ⟨0, _⟩ => rfl | ⟨1, _⟩ => rfl)
    rw [e0, e1]
  rw [es]
  exact logistic_spelt _

/-! ## The unpadded result -/

/-- Everything after the products and the gates is entry by entry: `cell` of the three gate blocks, the state's
    active entry and the two contributions at the index. -/
theorem where_cell (x0 : (⟨S4096x512, .f32⟩ : BufTy).Contents (Elt Ideal)) (x1 : (⟨S4096x2560, .f32⟩ : BufTy).Contents (Elt Ideal)) (x2 : (⟨S2048x512, .f32⟩ : BufTy).Contents (Elt Ideal)) (x3 : (⟨S2048x2048, .f32⟩ : BufTy).Contents (Elt Ideal)) (x4 : (⟨S6144x512, .f32⟩ : BufTy).Contents (Elt Ideal)) (i : S4096x2048.Idx) :
    val_main_v30 (F := Ideal) x0 x1 x2 x3 x4 i
      = cell (val_main_v13 (F := Ideal) x0 x4 i) (val_main_v14 (F := Ideal) x0 x4 i) (val_main_v15 (F := Ideal) x0 x4 i)
          (val_main_v0 (F := Ideal) x1 i) (val_main_v2 (F := Ideal) x0 x2 i) (val_main_v4 (F := Ideal) x1 x3 i) := by
  rw [val_main_v30_apply, val_main_v27_apply, val_main_v29_apply, val_main_v26_apply, val_main_v28_apply, val_main_cst_3_apply,
    val_main_cst_4_apply, val_main_v25_apply, val_main_v24_apply, val_main_v18_apply, val_main_v17_apply, val_main_cst_1_apply,
    val_main_v16_apply, val_main_v23_apply, val_main_v22_apply, val_main_cst_2_apply, val_main_v21_apply, val_main_v20_apply,
    val_main_v19_apply]
  rfl

/-- At row r and active column c the unpadded result is the row's gated update there. -/
theorem where_apply (x0 : (⟨S4096x512, .f32⟩ : BufTy).Contents (Elt Ideal)) (x1 : (⟨S4096x2560, .f32⟩ : BufTy).Contents (Elt Ideal)) (x2 : (⟨S2048x512, .f32⟩ : BufTy).Contents (Elt Ideal)) (x3 : (⟨S2048x2048, .f32⟩ : BufTy).Contents (Elt Ideal)) (x4 : (⟨S6144x512, .f32⟩ : BufTy).Contents (Elt Ideal)) (r : Fin 4096) (c : Fin 2048) :
    val_main_v30 (F := Ideal) x0 x1 x2 x3 x4 (ix2 r c)
      = rowUpd (fun k => x0 (ix2 r k)) (fun k => x1 (ix2 r ⟨k.val, by have := k.isLt; omega⟩)) x2 x3 x4 c := by
  have hc : c.val < 2048 := c.isLt
  rw [where_cell, val_main_v13_apply, val_main_v14_apply, val_main_v15_apply, val_main_v0_apply, inProd_apply, resProd_apply]
  have g0 : idx_main_v13 (ix2 r c) = ix2 r ⟨c.val, by omega⟩ := funext fun a => Fin.ext (by match a with | ⟨0, _⟩ => rfl | ⟨1, _⟩ => rfl)
  have g1 : idx_main_v14 (ix2 r c) = ix2 r ⟨c.val + 2048, by omega⟩ :=
    funext fun a => Fin.ext (by match a with | ⟨0, _⟩ => rfl | ⟨1, _⟩ => exact Nat.add_comm _ _)
  have g2 : idx_main_v15 (ix2 r c) = ix2 r ⟨c.val + 4096, by omega⟩ :=
    funext fun a => Fin.ext (by match a with | ⟨0, _⟩ => rfl | ⟨1, _⟩ => exact Nat.add_comm _ _)
  have g3 : idx_main_v0 (ix2 r c) = ix2 r ⟨c.val, by omega⟩ := funext fun a => Fin.ext (by match a with | ⟨0, _⟩ => rfl | ⟨1, _⟩ => rfl)
  rw [g0, g1, g2, g3, gates_apply, gates_apply, gates_apply]
  rfl

/-! ## The padding -/

/-- The pad value, the integer zero converted, is the number zero. -/
theorem padValue (j : S_.Idx) : val_main_call1_v0 (F := Ideal) j = 0 := by
  show ((((0#32 : BitVec 32).toInt : ℝ)) : EReal) = 0
  simp

/-- The reference's result is `G` of its arguments: inside the active columns the unpadded result, zero beside them. -/
theorem result_eq (x0 : (⟨S4096x512, .f32⟩ : BufTy).Contents (Elt Ideal)) (x1 : (⟨S4096x2560, .f32⟩ : BufTy).Contents (Elt Ideal)) (x2 : (⟨S2048x512, .f32⟩ : BufTy).Contents (Elt Ideal)) (x3 : (⟨S2048x2048, .f32⟩ : BufTy).Contents (Elt Ideal)) (x4 : (⟨S6144x512, .f32⟩ : BufTy).Contents (Elt Ideal)) :
    val_main_v31 (F := Ideal) x0 x1 x2 x3 x4 = G x0 x1 x2 x3 x4 := by
  funext i
  have h0 : (i 0).val < 4096 := (i 0).isLt
  have h1 : (i 1).val < 2560 := (i 1).isLt
  unfold val_main_v31 pad G
  by_cases h : (i 1).val < 2048
  · have hin : ∀ a : Fin S4096x2048.rank, (![0, 0] : Fin 2 → Nat) a ≤ (i (a.cast pads_S4096x2048_S4096x2560_000_05120.1)).val
        ∧ ((i (a.cast pads_S4096x2048_S4096x2560_000_05120.1)).val - (![0, 0] : Fin 2 → Nat) a) % ((![0, 0] : Fin 2 → Nat) a + 1) = 0
        ∧ ((i (a.cast pads_S4096x2048_S4096x2560_000_05120.1)).val - (![0, 0] : Fin 2 → Nat) a) / ((![0, 0] : Fin 2 → Nat) a + 1) < S4096x2048.size a := fun a => by
      match a with
      | ⟨0, _⟩ => exact ⟨Nat.zero_le _, by show ((i 0).val - 0) % (0 + 1) = 0; omega, by show ((i 0).val - 0) / (0 + 1) < 4096; omega⟩
      | ⟨1, _⟩ => exact ⟨Nat.zero_le _, by show ((i 1).val - 0) % (0 + 1) = 0; omega, by show ((i 1).val - 0) / (0 + 1) < 2048; omega⟩
    rw [dif_pos hin, dif_pos h]
    have e : (fun a : Fin S4096x2048.rank => (⟨((i (a.cast pads_S4096x2048_S4096x2560_000_05120.1)).val - (![0, 0] : Fin 2 → Nat) a) / ((![0, 0] : Fin 2 → Nat) a + 1), (hin a).2.2⟩ : Fin (S4096x2048.size a)))
        = ix2 (i 0) ⟨(i 1).val, h⟩ := funext fun a => Fin.ext (by
      match a with
      | ⟨0, _⟩ => show ((i 0).val - 0) / (0 + 1) = (i 0).val; omega
      | ⟨1, _⟩ => show ((i 1).val - 0) / (0 + 1) = (i 1).val; omega)
    rw [e]
    exact where_apply x0 x1 x2 x3 x4 (i 0) ⟨(i 1).val, h⟩
  · have hout : ¬∀ a : Fin S4096x2048.rank, (![0, 0] : Fin 2 → Nat) a ≤ (i (a.cast pads_S4096x2048_S4096x2560_000_05120.1)).val
        ∧ ((i (a.cast pads_S4096x2048_S4096x2560_000_05120.1)).val - (![0, 0] : Fin 2 → Nat) a) % ((![0, 0] : Fin 2 → Nat) a + 1) = 0
        ∧ ((i (a.cast pads_S4096x2048_S4096x2560_000_05120.1)).val - (![0, 0] : Fin 2 → Nat) a) / ((![0, 0] : Fin 2 → Nat) a + 1) < S4096x2048.size a := fun hall => by
      have := (hall ⟨1, by decide⟩).2.2
      have h2 : ((i 1).val - 0) / (0 + 1) < 2048 := this
      omega
    rw [dif_neg hout, dif_neg h]
    exact padValue _

end Cert.ReferenceIdeal.RefValue

end
-- ==== Proof.lean ====
/-
  The five claims of one reservoir step (Spec.lean has the function), assembled.

  The kernel is a pallas_call of 32 grid points, each updating 128 rows; the reference is a chain of host
  operations. Both frames of the kernel — as printed and idealized — come from the same body proof: five whole
  loads, two stores that tile the result's buffer, nothing kept between points (Body / Run for the idealized
  program, BodyBits / RunBits for the printed one). The ideal pass rewrote nothing, so `preserves` has no
  conjunct. For `algebraic`: the kernel's result array is Spec.G of its arguments (KernelValue, over the
  stored value read at an index in KernelCell), the reference's result is Spec.G of its arguments (RefCell, over
  the reference's run read one operation at a time), and the arguments agree. No law of arithmetic beyond the
  definitions joins the two sides — each entry is the same expression of the same sums — so the precondition
  is never opened.
-/
import proofs.«152846_j10806137717143_2_alg».proof.Defs
import proofs.«152846_j10806137717143_2_alg».proof.Proof.Run
import proofs.«152846_j10806137717143_2_alg».proof.Proof.RunBits
import proofs.«152846_j10806137717143_2_alg».proof.Proof.KernelValue
import proofs.«152846_j10806137717143_2_alg».proof.Proof.RefCell
import proofs.«152846_j10806137717143_2_alg».proof.Proof.Gen.Kernel
import proofs.«152846_j10806137717143_2_alg».proof.Proof.Gen.KernelIdeal
import proofs.«152846_j10806137717143_2_alg».proof.Proof.Gen.ReferenceIdeal
import proofs.«152846_j10806137717143_2_alg».proof.Proof.Gen.ReferenceIdeal.Run
import proofs.«152846_j10806137717143_2_alg».proof.Proof.Gen.ReferenceIdeal.Read
import proofs.«152846_j10806137717143_2_alg».proof.Proof.Gen.Pre_finite_inputs
import Idealize.ShloMosaic.Adequacy
import Idealize.ShloMosaic.Init

noncomputable section

namespace Cert.Proof

open Idealize.ShloMosaic Idealize.SL.Sem

/-- The printed kernel runs to the end, faults nowhere and leaves its arguments as launched. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The reference, a sequence of host operations, runs to the end with its arguments unchanged: its run with the
    result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- From memories agreeing on the five arguments, both idealized programs end with the result array at `Spec.G`
    of the arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
